-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S100000x64 .f32) (main_arg1 : IVec S2x1200000 32) (main_arg2 : FVec F S128x64 .f32) (main_arg3 : FVec F S128 .f32) (main_arg4 : FVec F S128x64 .f32) (main_arg5 : FVec F S64x128 .f32) (main_arg6 : FVec F S64 .f32) (main_arg7 : FVec F S64x128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x64 : Shape := ⟨2, ![100000, 64]⟩
abbrev S2x1200000 : Shape := ⟨2, ![2, 1200000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S1200000x64 : Shape := ⟨2, ![1200000, 64]⟩
abbrev S100000x1 : Shape := ⟨2, ![100000, 1]⟩
abbrev S1x128 : Shape := ⟨2, ![1, 128]⟩
abbrev S100000x128 : Shape := ⟨2, ![100000, 128]⟩
abbrev S10000x64 : Shape := ⟨2, ![10000, 64]⟩
abbrev S10000x128 : Shape := ⟨2, ![10000, 128]⟩
abbrev S1200000x128 : Shape := ⟨2, ![1200000, 128]⟩
abbrev S1x64 : Shape := ⟨2, ![1, 64]⟩

abbrev nBuf : Space → Nat
  | .hbm => 64
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .f32⟩
  | .hbm, ⟨13, _⟩ => ⟨S1200000, .f32⟩
  | .hbm, ⟨14, _⟩ => ⟨S_, .f32⟩
  | .hbm, ⟨15, _⟩ => ⟨S100000, .f32⟩
  | .hbm, ⟨16, _⟩ => ⟨S1200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1200000, .i32⟩
  | .hbm, ⟨26, _⟩ => ⟨S1200000, .i1⟩
  | .hbm, ⟨27, _⟩ => ⟨S_, .i32⟩
  | .hbm, ⟨28, _⟩ => ⟨S1200000, .i32⟩
  | .hbm, ⟨29, _⟩ => ⟨S1200000, .i32⟩
  | .hbm, ⟨30, _⟩ => ⟨S1200000, .i32⟩
  | .hbm, ⟨31, _⟩ => ⟨S1200000x1, .i32⟩
  | .hbm, ⟨32, _⟩ => ⟨S1200000x64, .f32⟩
  | .hbm, ⟨33, _⟩ => ⟨S_, .f32⟩
  | .hbm, ⟨34, _⟩ => ⟨S100000x64, .f32⟩
  | .hbm, ⟨35, _⟩ => ⟨S1200000x1, .i32⟩
  | .hbm, ⟨36, _⟩ => ⟨S100000x64, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S64x128, .f32⟩
  | .hbm, ⟨41, _⟩ => ⟨S64x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1200000, .i32⟩
  | .hbm, ⟨46, _⟩ => ⟨S1200000, .i1⟩
  | .hbm, ⟨47, _⟩ => ⟨S_, .i32⟩
  | .hbm, ⟨48, _⟩ => ⟨S1200000, .i32⟩
  | .hbm, ⟨49, _⟩ => ⟨S1200000, .i32⟩
  | .hbm, ⟨50, _⟩ => ⟨S1200000, .i32⟩
  | .hbm, ⟨51, _⟩ => ⟨S1200000x1, .i32⟩
  | .hbm, ⟨52, _⟩ => ⟨S1200000x128, .f32⟩
  | .hbm, ⟨53, _⟩ => ⟨S_, .f32⟩
  | .hbm, ⟨54, _⟩ => ⟨S100000x128, .f32⟩
  | .hbm, ⟨55, _⟩ => ⟨S1200000x1, .i32⟩
  | .hbm, ⟨56, _⟩ => ⟨S100000x128, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S128x64, .f32⟩
  | .hbm, ⟨61, _⟩ => ⟨S128x64, .f32⟩
  | .hbm, ⟨62, _⟩ => ⟨S1x64, .f32⟩
  | .hbm, ⟨63, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128x64, .f32⟩
  | .local _ .vmem, ⟨14, _⟩ => ⟨S1x64, .f32⟩
  | .local _ .vmem, ⟨15, _⟩ => ⟨S128x64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S64x128_S128x64_1_0 : S64x128.Transposes [1, 0] S128x64
  shapeCasts_S64_S1x64 : S64.ShapeCasts S1x64
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x64_S64x128_S10000x128_1_0_0_1_n_n_wf : DotDims.WF S10000x64 S64x128 S10000x128 [1] [0] [0] [1] [] []
  gather_S100000x128_S1200000x1_S1200000x128_1_0_n_n_0_1_1128_wf : GatherDims.WF S100000x128 S1200000x1 S1200000x128 [1] [0] [] [0] [] 1 ![1, 128]
  scatter_S100000x128_S1200000x1_S1200000x128_1_0_0_1_wf : ScatterDims.WF S100000x128 S1200000x1 S1200000x128 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1200000x1_S1200000x128_1_0_n_n_0_1_1128 : GatherDims S100000x128 S1200000x1 S1200000x128 where
  offsetDims := [1]
  collapsedSliceDims := [0]
  operandBatchingDims := []
  startIndicesBatchingDims := []
  startIndexMap := [0]
  indexVectorDim := 1
  sliceSizes := ![1, 128]
  wf := gather_S100000x128_S1200000x1_S1200000x128_1_0_n_n_0_1_1128_wf
def scatter_S100000x128_S1200000x1_S1200000x128_1_0_0_1 : ScatterDims S100000x128 S1200000x1 S1200000x128 where
  updateWindowDims := [1]
  insertedWindowDims := [0]
  scatterDimsToOperandDims := [0]
  indexVectorDim := 1
  wf := scatter_S100000x128_S1200000x1_S1200000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v24) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1200000x128 : Shape := ⟨2, ![1200000, 128]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .i32⟩
  | .hbm, ⟨13, _⟩ => ⟨S1200000, .i32⟩
  | .hbm, ⟨14, _⟩ => ⟨S1200000, .i1⟩
  | .hbm, ⟨15, _⟩ => ⟨S_, .i32⟩
  | .hbm, ⟨16, _⟩ => ⟨S1200000, .i32⟩
  | .hbm, ⟨17, _⟩ => ⟨S1200000, .i32⟩
  | .hbm, ⟨18, _⟩ => ⟨S1200000, .i32⟩
  | .hbm, ⟨19, _⟩ => ⟨S1200000x1, .i32⟩
  | .hbm, ⟨20, _⟩ => ⟨S1200000x64, .f32⟩
  | .hbm, ⟨21, _⟩ => ⟨S_, .f32⟩
  | .hbm, ⟨22, _⟩ => ⟨S100000x64, .f32⟩
  | .hbm, ⟨23, _⟩ => ⟨S1200000x1, .i32⟩
  | .hbm, ⟨24, _⟩ => ⟨S100000x64, .f32⟩
  | .hbm, ⟨25, _⟩ => ⟨S_, .f32⟩
  | .hbm, ⟨26, _⟩ => ⟨S1200000, .f32⟩
  | .hbm, ⟨27, _⟩ => ⟨S_, .f32⟩
  | .hbm, ⟨28, _⟩ => ⟨S100000, .f32⟩
  | .hbm, ⟨29, _⟩ => ⟨S1200000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S64x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1200000, .i32⟩
  | .hbm, ⟨50, _⟩ => ⟨S1200000, .i1⟩
  | .hbm, ⟨51, _⟩ => ⟨S_, .i32⟩
  | .hbm, ⟨52, _⟩ => ⟨S1200000, .i32⟩
  | .hbm, ⟨53, _⟩ => ⟨S1200000, .i32⟩
  | .hbm, ⟨54, _⟩ => ⟨S1200000, .i32⟩
  | .hbm, ⟨55, _⟩ => ⟨S1200000x1, .i32⟩
  | .hbm, ⟨56, _⟩ => ⟨S1200000x128, .f32⟩
  | .hbm, ⟨57, _⟩ => ⟨S_, .f32⟩
  | .hbm, ⟨58, _⟩ => ⟨S100000x128, .f32⟩
  | .hbm, ⟨59, _⟩ => ⟨S1200000x1, .i32⟩
  | .hbm, ⟨60, _⟩ => ⟨S100000x128, .f32⟩
  | .hbm, ⟨61, _⟩ => ⟨S_, .f32⟩
  | .hbm, ⟨62, _⟩ => ⟨S1200000, .f32⟩
  | .hbm, ⟨63, _⟩ => ⟨S_, .f32⟩
  | .hbm, ⟨64, _⟩ => ⟨S100000, .f32⟩
  | .hbm, ⟨65, _⟩ => ⟨S1200000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S128x64, .f32⟩
  | .hbm, ⟨79, _⟩ => ⟨S100000x64, .f32⟩
  | .hbm, ⟨80, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x128_S100000x128_1_0_0_1_n_n_wf : DotDims.WF S100000x64 S64x128 S100000x128 [1] [0] [0] [1] [] []
  gather_S100000x128_S1200000x1_S1200000x128_1_0_n_n_0_1_1128_wf : GatherDims.WF S100000x128 S1200000x1 S1200000x128 [1] [0] [] [0] [] 1 ![1, 128]
  scatter_S100000x128_S1200000x1_S1200000x128_1_0_0_1_wf : ScatterDims.WF S100000x128 S1200000x1 S1200000x128 [1] [0] [0] 1
  dot_S100000x128_S128x64_S100000x64_1_0_0_1_n_n_wf : DotDims.WF S100000x128 S128x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1200000x1_S1200000x128_1_0_n_n_0_1_1128 : GatherDims S100000x128 S1200000x1 S1200000x128 where
  offsetDims := [1]
  collapsedSliceDims := [0]
  operandBatchingDims := []
  startIndicesBatchingDims := []
  startIndexMap := [0]
  indexVectorDim := 1
  sliceSizes := ![1, 128]
  wf := gather_S100000x128_S1200000x1_S1200000x128_1_0_n_n_0_1_1128_wf
def scatter_S100000x128_S1200000x1_S1200000x128_1_0_0_1 : ScatterDims S100000x128 S1200000x1 S1200000x128 where
  updateWindowDims := [1]
  insertedWindowDims := [0]
  scatterDimsToOperandDims := [0]
  indexVectorDim := 1
  wf := scatter_S100000x128_S1200000x1_S1200000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result buffer named.

  The program is two tiled dense stages among stretches of host operations.  Every weakly fair execution
  terminates, and at the end each buffer that outlives the regions holds the last boundary's contents: the
  fold of the host stretches and of the two regions' write-backs from the launch memory.  The frame keeps only
  the argument arrays of that fact; here the result array is kept as well, at the contents the second region's
  write-backs leave.
-/
import proofs.«110185_j2585570312619_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result array at the last boundary's contents and the
    argument arrays as launched. -/
theorem run_result : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.MeanLaw.lean ====
/-
  The mean over a node's neighbours, two ways.

  One program multiplies the summed neighbour features by the reciprocal 1 / max(deg, 1) of the node's clamped
  in-degree, the other divides them by max(deg, 1).  On the extended reals a quotient by a nonzero divisor `d`
  is the product with the inverse of `d`, and max(deg, 1) is at least 1 whatever `deg` is, so the two agree for
  every summed feature `s`, the infinite ones included; no finiteness of the inputs is needed.
-/
import Idealize.ShloMosaic.PureOps.Ideal
import Idealize.ShloMosaic.Lib.IdealHost

noncomputable section

namespace Cert.Sage

open Idealize.ShloMosaic

/-- The clamped degree is never zero. -/
theorem max_one_ne_zero (x : EReal) : max x 1 ≠ 0 :=
  ne_of_gt (lt_of_lt_of_le zero_lt_one (le_max_right x 1))

/-- Multiplying by the reciprocal of a nonzero extended real is dividing by it. -/
theorem mul_recip_eq_div (s d : EReal) (hd : d ≠ 0) : s * Ideal.div 1 d = Ideal.div s d := by
  unfold Ideal.div
  rw [if_neg hd, if_neg hd, one_mul]

/-- The two spellings of the mean at one entry, the constant one as the float word of 1.0. -/
theorem mean_entry (s deg : EReal) :
    s * Ideal.div (Ideal.ofBits .f32 0x3F800000#32) (max deg (Ideal.ofBits .f32 0x3F800000#32))
      = Ideal.div s (max deg (Ideal.ofBits .f32 0x3F800000#32)) := by
  rw [Ideal.ofBits_one_f32]
  exact mul_recip_eq_div s _ (max_one_ne_zero deg)

end Cert.Sage

end
-- ==== Proof.DensePayload.lean ====
/-
  The two dense stages' bodies as arithmetic.

  One grid point of a stage holds a tile of rows of the aggregated features `a` and of the root features `x`,
  the two weight matrices `wl`, `wr` whole, and the bias as one row `b`.  What it stores at row `p`,
  column `c` is  (Σ_k a[p,k]·wl[k,c] + b[0,c]) + Σ_k x[p,k]·wr[k,c],  under a maximum with 0 in the first
  stage: at the extended reals the change to the narrower float format is the identity and a matrix product
  into the zero accumulator is the plain sum over the contracted axis.
-/
import proofs.«110185_j2585570312619_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The first stage: tiles of 10000 rows, 64 features in, 128 out -/

theorem lhs0_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem lhs0_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
theorem rhs0_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
theorem rhs0_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- A tile's matrix product into the zero accumulator, at row `p` and column `c`: the sum over the 64 contracted
    positions of the left operand's row entry times the right operand's column entry. -/
theorem matmul0_apply {φ₁ φ₂ : FTy} (l : FVec Ideal S10000x64 φ₁) (r : FVec Ideal S64x128 φ₂) (p : Fin 10000) (c : Fin 128) :
    FloatOps.matmul dot_S10000x64_S64x128_S10000x128_1_0_0_1_n_n none l r (constant (F := Ideal) S10000x128 .f32 0x00000000#32) (ix2 p c)
      = ∑ k : Fin 64, l (ix2 p k) * r (ix2 k c) := by
  rw [Ideal.matmul_constant_zero_apply, ← Equiv.sum_comp (ValueIdx.contrEquiv1 dot_S10000x64_S64x128_S10000x128_1_0_0_1_n_n 64 rfl rfl).symm]
  refine Finset.sum_congr rfl fun k _ => ?_
  have hk := ValueIdx.contrEquiv1_symm_val dot_S10000x64_S64x128_S10000x128_1_0_0_1_n_n 64 rfl rfl k
  have el : dot_S10000x64_S64x128_S10000x128_1_0_0_1_n_n.lhsIdx (ix2 p c) ((ValueIdx.contrEquiv1 dot_S10000x64_S64x128_S10000x128_1_0_0_1_n_n 64 rfl rfl).symm k) = ix2 p k := funext fun a => Fin.ext (by
    match a with
    | ⟨0, _⟩ => exact lhs0_0 _ _
    | ⟨1, _⟩ => exact (lhs0_1 _ _).trans hk)
  have er : dot_S10000x64_S64x128_S10000x128_1_0_0_1_n_n.rhsIdx (ix2 p c) ((ValueIdx.contrEquiv1 dot_S10000x64_S64x128_S10000x128_1_0_0_1_n_n 64 rfl rfl).symm k) = ix2 k c := funext fun a => Fin.ext (by
    match a with
    | ⟨0, _⟩ => exact (rhs0_0 _ _).trans hk
    | ⟨1, _⟩ => exact rhs0_1 _ _)
  rw [el, er]

/-- What the first stage's body stores at row `p`, column `c` of its tile. -/
theorem pay0_apply (a x : Vec Ideal S10000x64 .f32) (wl wr : Vec Ideal S64x128 .f32) (b : Vec Ideal S1x128 .f32)
    (p : Fin 10000) (c : Fin 128) :
    k0_pay1 (F := Ideal) a x wl wr b (ix2 p c)
      = max (((∑ k : Fin 64, a (ix2 p k) * wl (ix2 k c)) + b (ix2 (0 : Fin 1) c)) + ∑ k : Fin 64, x (ix2 p k) * wr (ix2 k c)) 0 := by
  unfold k0_pay1
  show max (((FloatOps.matmul dot_S10000x64_S64x128_S10000x128_1_0_0_1_n_n none
        (truncf .bf16 (shapeCast S10000x64 a shapeCasts_S10000x64_S10000x64) bitsLt_bf16_f32)
        (truncf .bf16 (shapeCast S64x128 wl shapeCasts_S64x128_S64x128) bitsLt_bf16_f32)
        (constant (F := Ideal) S10000x128 .f32 0x00000000#32) (ix2 p c))
      + broadcastTo S10000x128 (shapeCast S1x128 b shapeCasts_S1x128_S1x128) broadcasts_S1x128_S10000x128 (ix2 p c))
      + FloatOps.matmul dot_S10000x64_S64x128_S10000x128_1_0_0_1_n_n none
        (truncf .bf16 x bitsLt_bf16_f32)
        (truncf .bf16 (shapeCast S64x128 wr shapeCasts_S64x128_S64x128) bitsLt_bf16_f32)
        (constant (F := Ideal) S10000x128 .f32 0x00000000#32) (ix2 p c))
      (Ideal.ofBits .f32 0x00000000#32) = _
  rw [matmul0_apply, matmul0_apply, broadcastTo_1b_ab_apply, Ideal.ofBits_zero_f32]
  simp only [shapeCast_self]
  rfl

/-! ## The second stage: tiles of 10000 rows, 128 features in, 64 out -/

theorem lhs1_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs1_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs1_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs1_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- A tile's matrix product into the zero accumulator, at row `p` and column `c`: the sum over the 128 contracted
    positions of the left operand's row entry times the right operand's column entry. -/
theorem matmul1_apply {φ₁ φ₂ : FTy} (l : FVec Ideal S10000x128 φ₁) (r : FVec Ideal S128x64 φ₂) (p : Fin 10000) (c : Fin 64) :
    FloatOps.matmul dot_S10000x128_S128x64_S10000x64_1_0_0_1_n_n none l r (constant (F := Ideal) S10000x64 .f32 0x00000000#32) (ix2 p c)
      = ∑ k : Fin 128, l (ix2 p k) * r (ix2 k c) := by
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p c) ((ValueIdx.contrEquiv1 dot_S10000x128_S128x64_S10000x64_1_0_0_1_n_n 128 rfl rfl).symm k) = ix2 p k := funext fun a => Fin.ext (by
    match a with
    | ⟨0, _⟩ => exact lhs1_0 _ _
    | ⟨1, _⟩ => exact (lhs1_1 _ _).trans hk)
  have er : dot_S10000x128_S128x64_S10000x64_1_0_0_1_n_n.rhsIdx (ix2 p c) ((ValueIdx.contrEquiv1 dot_S10000x128_S128x64_S10000x64_1_0_0_1_n_n 128 rfl rfl).symm k) = ix2 k c := funext fun a => Fin.ext (by
    match a with
    | ⟨0, _⟩ => exact (rhs1_0 _ _).trans hk
    | ⟨1, _⟩ => exact rhs1_1 _ _)
  rw [el, er]

/-- What the second stage's body stores at row `p`, column `c` of its tile. -/
theorem pay1_apply (a x : Vec Ideal S10000x128 .f32) (wl wr : Vec Ideal S128x64 .f32) (b : Vec Ideal S1x64 .f32)
    (p : Fin 10000) (c : Fin 64) :
    k1_pay1 (F := Ideal) a x wl wr b (ix2 p c)
      = ((∑ k : Fin 128, a (ix2 p k) * wl (ix2 k c)) + b (ix2 (0 : Fin 1) c)) + ∑ k : Fin 128, x (ix2 p k) * wr (ix2 k c) := by
  unfold k1_pay1
  show ((FloatOps.matmul dot_S10000x128_S128x64_S10000x64_1_0_0_1_n_n none
        (truncf .bf16 (shapeCast S10000x128 a shapeCasts_S10000x128_S10000x128) bitsLt_bf16_f32)
        (truncf .bf16 (shapeCast S128x64 wl shapeCasts_S128x64_S128x64) bitsLt_bf16_f32)
        (constant (F := Ideal) S10000x64 .f32 0x00000000#32) (ix2 p c))
      + broadcastTo S10000x64 (shapeCast S1x64 b shapeCasts_S1x64_S1x64) broadcasts_S1x64_S10000x64 (ix2 p c))
      + FloatOps.matmul dot_S10000x128_S128x64_S10000x64_1_0_0_1_n_n none
        (truncf .bf16 (shapeCast S10000x128 x shapeCasts_S10000x128_S10000x128) bitsLt_bf16_f32)
        (truncf .bf16 (shapeCast S128x64 wr shapeCasts_S128x64_S128x64) bitsLt_bf16_f32)
        (constant (F := Ideal) S10000x64 .f32 0x00000000#32) (ix2 p c) = _
  rw [matmul1_apply, matmul1_apply, broadcastTo_1b_ab_apply]
  simp only [shapeCast_self]
  rfl

end Cert.KernelIdeal.Payload

end
-- ==== Proof.DenseSpec.lean ====
/-
  One dense stage of the network as a function of whole arrays.

  For a table `A` of aggregated neighbour features and a table `X` of root features, both [n, K], weight matrices
  `WL`, `WR` of shape [K, d] and a bias row `B` of shape [1, d], the stage's value at row `r`, column `c` is
      (Σ_k A[r,k]·WL[k,c] + B[0,c]) + Σ_k X[r,k]·WR[k,c],
  and the first stage clamps it below at 0.  Both programs compute exactly this arrangement of sums, so no
  rearrangement law is needed between them: the tiled program computes it tile by tile, the other whole.
-/
import Idealize.ShloMosaic.Lib.ValueIdx
import Idealize.ShloMosaic.PureOps.Ideal

noncomputable section

namespace Cert.Sage

open Idealize.ShloMosaic Idealize.ShloMosaic.ValueIdx

/-- The stage's value at row `r` and column `c`. -/
def denseAt {n K d : ℕ} (A X : (⟨2, ![n, K]⟩ : Shape).Idx → EReal) (WL WR : (⟨2, ![K, d]⟩ : Shape).Idx → EReal)
    (B : (⟨2, ![1, d]⟩ : Shape).Idx → EReal) (r : Fin n) (c : Fin d) : EReal :=
  ((∑ k : Fin K, A (ix2 r k) * WL (ix2 k c)) + B (ix2 (0 : Fin 1) c)) + ∑ k : Fin K, X (ix2 r k) * WR (ix2 k c)

/-- The stage as an array. -/
def dense {n K d : ℕ} (A X : (⟨2, ![n, K]⟩ : Shape).Idx → EReal) (WL WR : (⟨2, ![K, d]⟩ : Shape).Idx → EReal)
    (B : (⟨2, ![1, d]⟩ : Shape).Idx → EReal) : (⟨2, ![n, d]⟩ : Shape).Idx → EReal :=
  fun i => denseAt A X WL WR B (i 0) (i 1)

/-- The stage followed by the clamp at zero, as an array. -/
def denseRelu {n K d : ℕ} (A X : (⟨2, ![n, K]⟩ : Shape).Idx → EReal) (WL WR : (⟨2, ![K, d]⟩ : Shape).Idx → EReal)
    (B : (⟨2, ![1, d]⟩ : Shape).Idx → EReal) : (⟨2, ![n, d]⟩ : Shape).Idx → EReal :=
  fun i => max (denseAt A X WL WR B (i 0) (i 1)) 0

theorem dense_apply {n K d : ℕ} (A X : (⟨2, ![n, K]⟩ : Shape).Idx → EReal) (WL WR : (⟨2, ![K, d]⟩ : Shape).Idx → EReal)
    (B : (⟨2, ![1, d]⟩ : Shape).Idx → EReal) (r : Fin n) (c : Fin d) :
    dense A X WL WR B (ix2 r c) = denseAt A X WL WR B r c := rfl

theorem denseRelu_apply {n K d : ℕ} (A X : (⟨2, ![n, K]⟩ : Shape).Idx → EReal) (WL WR : (⟨2, ![K, d]⟩ : Shape).Idx → EReal)
    (B : (⟨2, ![1, d]⟩ : Shape).Idx → EReal) (r : Fin n) (c : Fin d) :
    denseRelu A X WL WR B (ix2 r c) = max (denseAt A X WL WR B r c) 0 := rfl

end Cert.Sage

end
-- ==== Proof.Stage0Value.lean ====
/-
  The first dense stage's result array.

  The region runs the stage's body at ten grid points; point t holds rows 10000·t … 10000·t + 9999 of the
  aggregated features and of the root features, the two weight matrices and the bias row whole, and writes
  back the same rows of the result.  So what each point writes back is its tile of rows of ONE whole-array
  function of the five operand arrays, the stage's value clamped at zero, and the ten tiles cover the result
  array: after the region the array holds that function.
-/
import proofs.«110185_j2585570312619_1_alg».proof.Proof.Gen.KernelIdeal.Frame
import proofs.«110185_j2585570312619_1_alg».proof.Proof.DensePayload
import proofs.«110185_j2585570312619_1_alg».proof.Proof.DenseSpec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Stage0

open Cert.KernelIdeal Cert.KernelIdeal.Gen Cert.KernelIdeal.Payload Cert.Sage

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the two row-tiled inputs and the output move with the point along the rows,
    the weights and the bias stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the aggregated features' tile at point `t` is row `10000·t + p` of the whole table. -/
theorem blkA (c : Dev nD) (t : Fin cfg0.N) (p : Fin 10000) (r : Fin 100000) (hr : r.val = t.val * 10000 + p.val) (k : Fin 64) :
    (iblk0 V c 0 t : Vec Ideal S10000x64 .f32) (ix2 p k) = (V c main_v24 : S100000x64.Idx → EReal) (ix2 r k) := by
  obtain ⟨e0, e1, -⟩ := idx_facts t
  unfold iblk0
  rw [View.read_apply]
  show V c main_v24 _ = V c main_v24 _
  congr 1
  funext a
  apply Fin.ext
  match a with
  | ⟨0, _⟩ => show win0_0.index t 0 * 10000 + 1 * p.val = r.val; rw [e0, hr]; omega
  | ⟨1, _⟩ => show win0_0.index t 1 * 64 + 1 * k.val = k.val; rw [e1]; omega

/-- The same for the root features' tile. -/
theorem blkX (c : Dev nD) (t : Fin cfg0.N) (p : Fin 10000) (r : Fin 100000) (hr : r.val = t.val * 10000 + p.val) (k : Fin 64) :
    (iblk0 V c 1 t : Vec Ideal S10000x64 .f32) (ix2 p k) = (V c main_arg0 : S100000x64.Idx → EReal) (ix2 r k) := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t 0 * 10000 + 1 * p.val = r.val; rw [e0, hr]; omega
  | ⟨1, _⟩ => show win0_1.index t 1 * 64 + 1 * k.val = k.val; rw [e1]; omega

/-- The weight matrices' one block is the whole matrix, at every point. -/
theorem blkWL (c : Dev nD) (t : Fin cfg0.N) (k : Fin 64) (q : Fin 128) :
    (iblk0 V c 2 t : Vec Ideal S64x128 .f32) (ix2 k q) = (V c main_v25 : S64x128.Idx → EReal) (ix2 k q) := by
  obtain ⟨-, -, -, -, e0, e1, -⟩ := idx_facts t
  unfold iblk0
  rw [View.read_apply]
  show V c main_v25 _ = V c main_v25 _
  congr 1
  funext a
  apply Fin.ext
  match a with
  | ⟨0, _⟩ => show win0_2.index t 0 * 64 + 1 * k.val = k.val; rw [e0]; omega
  | ⟨1, _⟩ => show win0_2.index t 1 * 128 + 1 * q.val = q.val; rw [e1]; omega

theorem blkWR (c : Dev nD) (t : Fin cfg0.N) (k : Fin 64) (q : Fin 128) :
    (iblk0 V c 4 t : Vec Ideal S64x128 .f32) (ix2 k q) = (V c main_v26 : S64x128.Idx → EReal) (ix2 k q) := by
  obtain ⟨-, -, -, -, -, -, -, -, e0, e1, -⟩ := idx_facts t
  unfold iblk0
  rw [View.read_apply]
  show V c main_v26 _ = V c main_v26 _
  congr 1
  funext a
  apply Fin.ext
  match a with
  | ⟨0, _⟩ => show win0_4.index t 0 * 64 + 1 * k.val = k.val; rw [e0]; omega
  | ⟨1, _⟩ => show win0_4.index t 1 * 128 + 1 * q.val = q.val; rw [e1]; omega

/-- The bias row's one block is the whole row, at every point. -/
theorem blkB (c : Dev nD) (t : Fin cfg0.N) (q : Fin 128) :
    (iblk0 V c 3 t : Vec Ideal S1x128 .f32) (ix2 (0 : Fin 1) q) = (V c main_v27 : S1x128.Idx → EReal) (ix2 (0 : Fin 1) q) := by
  obtain ⟨-, -, -, -, -, -, e0, e1, -⟩ := idx_facts t
  unfold iblk0
  rw [View.read_apply]
  show V c main_v27 _ = V c main_v27 _
  congr 1
  funext a
  apply Fin.ext
  match a with
  | ⟨0, _⟩ => show win0_3.index t 0 * 1 + 1 * 0 = 0; rw [e0]
  | ⟨1, _⟩ => show win0_3.index t 1 * 128 + 1 * q.val = q.val; rw [e1]; omega

/-- What point `t` writes back is its tile of rows of the stage's whole-array value, whenever the region finds the
    five operand arrays holding `A`, `X`, `WL`, `B`, `WR`. -/
theorem flushed_eq (c : Dev nD) (t : Fin cfg0.N)
    (A X : S100000x64.Idx → EReal) (WL WR : S64x128.Idx → EReal) (B : S1x128.Idx → EReal)
    (hA : (V c main_v24 : S100000x64.Idx → EReal) = A) (hX : (V c main_arg0 : S100000x64.Idx → EReal) = X)
    (hWL : (V c main_v25 : S64x128.Idx → EReal) = WL) (hB : (V c main_v27 : S1x128.Idx → EReal) = B)
    (hWR : (V c main_v26 : S64x128.Idx → EReal) = WR) :
    (dat0 V c).flushed 5 t = ((cfg0.win 5).blk t).view.read (Elt Ideal) (denseRelu A X WL WR B) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x128) hz, View.ld_unit_zero (S := S1x128) hz]
  funext j
  obtain ⟨p, q, rfl⟩ : ∃ (p : Fin 10000) (q : Fin 128), j = ix2 p q := ⟨j 0, j 1, eq_ix2 j⟩
  have ht : t.val < 10 := lt_of_lt_of_eq t.isLt N_0
  have hp : p.val < 10000 := p.isLt
  obtain ⟨r, hr⟩ : ∃ r : Fin 100000, r.val = t.val * 10000 + p.val := ⟨⟨t.val * 10000 + p.val, by omega⟩, rfl⟩
  have hemb : ((cfg0.win 5).blk t).view.emb (ix2 p q) = (ix2 r q : S100000x128.Idx) := by
    obtain ⟨-, -, -, -, -, -, -, -, -, -, e10, e11⟩ := idx_facts t
    funext a
    apply Fin.ext
    match a with
    | ⟨0, _⟩ => show win0_5.index t 0 * 10000 + 1 * p.val = r.val; rw [e10, hr]; omega
    | ⟨1, _⟩ => show win0_5.index t 1 * 128 + 1 * q.val = q.val; rw [e11]; omega
  show k0_pay1 (iblk0 V c 0 t) (iblk0 V c 1 t) (iblk0 V c 2 t) (iblk0 V c 4 t) (iblk0 V c 3 t) (ix2 p q)
    = denseRelu A X WL WR B (((cfg0.win 5).blk t).view.emb (ix2 p q))
  rw [hemb, denseRelu_apply, pay0_apply (iblk0 V c 0 t) (iblk0 V c 1 t) (iblk0 V c 2 t) (iblk0 V c 4 t) (iblk0 V c 3 t) p q]
  unfold denseAt
  simp only [blkA V c t p r hr, blkX V c t p r hr, blkWL V c t, blkWR V c t, blkB V c t, hA, hX, hWL, hB, hWR]

/-- An index of the result array is in point `t`'s block iff each coordinate is in the block's range. -/
theorem mem_blk (t : Fin cfg0.N) (i : S100000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v28).slice (win0_5.rect t)).set ↔ _
  rw [View.set_slice_whole, Rect.mem_set_unit]
  exact Iff.rfl

/-- The ten tiles of rows cover the result array: row `r` is in the tile of point `r / 10000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 10000 := ⟨⟨(i 0).val / 10000, by rw [show cfg0.N = 10 from N_0]; omega⟩, rfl⟩
  obtain ⟨-, -, -, -, -, -, -, -, -, -, e10, e11⟩ := idx_facts t
  refine ⟨t, flush0_5 t, ?_⟩
  rw [mem_blk]
  intro a
  match a with
  | ⟨0, _⟩ => show win0_5.index t 0 * 10000 ≤ (i 0).val ∧ (i 0).val < win0_5.index t 0 * 10000 + 10000; rw [e10, ht]; omega
  | ⟨1, _⟩ => show win0_5.index t 1 * 128 ≤ (i 1).val ∧ (i 1).val < win0_5.index t 1 * 128 + 128; rw [e11]; omega

/-- The result array after the region: the stage's whole-array value of the five operand arrays. -/
theorem final (c : Dev nD)
    (A X : S100000x64.Idx → EReal) (WL WR : S64x128.Idx → EReal) (B : S1x128.Idx → EReal)
    (hA : (V c main_v24 : S100000x64.Idx → EReal) = A) (hX : (V c main_arg0 : S100000x64.Idx → EReal) = X)
    (hWL : (V c main_v25 : S64x128.Idx → EReal) = WL) (hB : (V c main_v27 : S1x128.Idx → EReal) = B)
    (hWR : (V c main_v26 : S64x128.Idx → EReal) = WR) :
    (dat0 V c).arrAt 5 cfg0.N = denseRelu A X WL WR B :=
  (dat0 V c).arrAt_eq_of_cover 5 (denseRelu A X WL WR B) (fun t _ => flushed_eq V c t A X WL WR B hA hX hWL hB hWR) cover

end Cert.KernelIdeal.Stage0
end
-- ==== Proof.Stage1Value.lean ====
/-
  The second dense stage's result array.

  The region runs the stage's body at ten grid points; point t holds rows 10000·t … 10000·t + 9999 of the
  aggregated hidden features and of the hidden features, the two weight matrices and the bias row whole, and
  writes back the same rows of the result.  So what each point writes back is its tile of rows of ONE
  whole-array function of the five operand arrays, the stage's value, and the ten tiles cover the result array:
  after the region the array holds that function.
-/
import proofs.«110185_j2585570312619_1_alg».proof.Proof.Gen.KernelIdeal.Frame
import proofs.«110185_j2585570312619_1_alg».proof.Proof.DensePayload
import proofs.«110185_j2585570312619_1_alg».proof.Proof.DenseSpec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Stage1

open Cert.KernelIdeal Cert.KernelIdeal.Gen Cert.KernelIdeal.Payload Cert.Sage

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the two row-tiled inputs and the output move with the point along the rows,
    the weights and the bias stay at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the aggregated features' tile at point `t` is row `10000·t + p` of the whole table. -/
theorem blkA (c : Dev nD) (t : Fin cfg1.N) (p : Fin 10000) (r : Fin 100000) (hr : r.val = t.val * 10000 + p.val) (k : Fin 128) :
    (iblk1 V c 0 t : Vec Ideal S10000x128 .f32) (ix2 p k) = (V c main_v41 : S100000x128.Idx → EReal) (ix2 r k) := by
  obtain ⟨e0, e1, -⟩ := idx_facts t
  unfold iblk1
  rw [View.read_apply]
  show V c main_v41 _ = V c main_v41 _
  congr 1
  funext a
  apply Fin.ext
  match a with
  | ⟨0, _⟩ => show win1_0.index t 0 * 10000 + 1 * p.val = r.val; rw [e0, hr]; omega
  | ⟨1, _⟩ => show win1_0.index t 1 * 128 + 1 * k.val = k.val; rw [e1]; omega

/-- The same for the root features' tile. -/
theorem blkX (c : Dev nD) (t : Fin cfg1.N) (p : Fin 10000) (r : Fin 100000) (hr : r.val = t.val * 10000 + p.val) (k : Fin 128) :
    (iblk1 V c 1 t : Vec Ideal S10000x128 .f32) (ix2 p k) = (V c main_v28 : S100000x128.Idx → EReal) (ix2 r k) := by
  obtain ⟨-, -, e0, e1, -⟩ := idx_facts t
  unfold iblk1
  rw [View.read_apply]
  show V c main_v28 _ = V c main_v28 _
  congr 1
  funext a
  apply Fin.ext
  match a with
  | ⟨0, _⟩ => show win1_1.index t 0 * 10000 + 1 * p.val = r.val; rw [e0, hr]; omega
  | ⟨1, _⟩ => show win1_1.index t 1 * 128 + 1 * k.val = k.val; rw [e1]; omega

/-- The weight matrices' one block is the whole matrix, at every point. -/
theorem blkWL (c : Dev nD) (t : Fin cfg1.N) (k : Fin 128) (q : Fin 64) :
    (iblk1 V c 2 t : Vec Ideal S128x64 .f32) (ix2 k q) = (V c main_v42 : S128x64.Idx → EReal) (ix2 k q) := by
  obtain ⟨-, -, -, -, e0, e1, -⟩ := idx_facts t
  unfold iblk1
  rw [View.read_apply]
  show V c main_v42 _ = V c main_v42 _
  congr 1
  funext a
  apply Fin.ext
  match a with
  | ⟨0, _⟩ => show win1_2.index t 0 * 128 + 1 * k.val = k.val; rw [e0]; omega
  | ⟨1, _⟩ => show win1_2.index t 1 * 64 + 1 * q.val = q.val; rw [e1]; omega

theorem blkWR (c : Dev nD) (t : Fin cfg1.N) (k : Fin 128) (q : Fin 64) :
    (iblk1 V c 4 t : Vec Ideal S128x64 .f32) (ix2 k q) = (V c main_v43 : S128x64.Idx → EReal) (ix2 k q) := by
  obtain ⟨-, -, -, -, -, -, -, -, e0, e1, -⟩ := idx_facts t
  unfold iblk1
  rw [View.read_apply]
  show V c main_v43 _ = V c main_v43 _
  congr 1
  funext a
  apply Fin.ext
  match a with
  | ⟨0, _⟩ => show win1_4.index t 0 * 128 + 1 * k.val = k.val; rw [e0]; omega
  | ⟨1, _⟩ => show win1_4.index t 1 * 64 + 1 * q.val = q.val; rw [e1]; omega

/-- The bias row's one block is the whole row, at every point. -/
theorem blkB (c : Dev nD) (t : Fin cfg1.N) (q : Fin 64) :
    (iblk1 V c 3 t : Vec Ideal S1x64 .f32) (ix2 (0 : Fin 1) q) = (V c main_v44 : S1x64.Idx → EReal) (ix2 (0 : Fin 1) q) := by
  obtain ⟨-, -, -, -, -, -, e0, e1, -⟩ := idx_facts t
  unfold iblk1
  rw [View.read_apply]
  show V c main_v44 _ = V c main_v44 _
  congr 1
  funext a
  apply Fin.ext
  match a with
  | ⟨0, _⟩ => show win1_3.index t 0 * 1 + 1 * 0 = 0; rw [e0]
  | ⟨1, _⟩ => show win1_3.index t 1 * 64 + 1 * q.val = q.val; rw [e1]; omega

/-- What point `t` writes back is its tile of rows of the stage's whole-array value, whenever the region finds the
    five operand arrays holding `A`, `X`, `WL`, `B`, `WR`. -/
theorem flushed_eq (c : Dev nD) (t : Fin cfg1.N)
    (A X : S100000x128.Idx → EReal) (WL WR : S128x64.Idx → EReal) (B : S1x64.Idx → EReal)
    (hA : (V c main_v41 : S100000x128.Idx → EReal) = A) (hX : (V c main_v28 : S100000x128.Idx → EReal) = X)
    (hWL : (V c main_v42 : S128x64.Idx → EReal) = WL) (hB : (V c main_v44 : S1x64.Idx → EReal) = B)
    (hWR : (V c main_v43 : S128x64.Idx → EReal) = WR) :
    (dat1 V c).flushed 5 t = ((cfg1.win 5).blk t).view.read (Elt Ideal) (dense A X WL WR B) := by
  show (cfg1.win 5).cut (grid1.coords t) ((dat1 V c).after 5 t) = _
  rw [after1_5]
  unfold out1_5
  rw [View.canon_unit_zero hz]
  simp only [View.ld_unit_zero (S := S10000x128) hz, View.ld_unit_zero (S := S128x64) hz, View.ld_unit_zero (S := S1x64) hz]
  funext j
  obtain ⟨p, q, rfl⟩ : ∃ (p : Fin 10000) (q : Fin 64), j = ix2 p q := ⟨j 0, j 1, eq_ix2 j⟩
  have ht : t.val < 10 := lt_of_lt_of_eq t.isLt N_1
  have hp : p.val < 10000 := p.isLt
  obtain ⟨r, hr⟩ : ∃ r : Fin 100000, r.val = t.val * 10000 + p.val := ⟨⟨t.val * 10000 + p.val, by omega⟩, rfl⟩
  have hemb : ((cfg1.win 5).blk t).view.emb (ix2 p q) = (ix2 r q : S100000x64.Idx) := by
    obtain ⟨-, -, -, -, -, -, -, -, -, -, e10, e11⟩ := idx_facts t
    funext a
    apply Fin.ext
    match a with
    | ⟨0, _⟩ => show win1_5.index t 0 * 10000 + 1 * p.val = r.val; rw [e10, hr]; omega
    | ⟨1, _⟩ => show win1_5.index t 1 * 64 + 1 * q.val = q.val; rw [e11]; omega
  show k1_pay1 (iblk1 V c 0 t) (iblk1 V c 1 t) (iblk1 V c 2 t) (iblk1 V c 4 t) (iblk1 V c 3 t) (ix2 p q)
    = dense A X WL WR B (((cfg1.win 5).blk t).view.emb (ix2 p q))
  rw [hemb, dense_apply, pay1_apply (iblk1 V c 0 t) (iblk1 V c 1 t) (iblk1 V c 2 t) (iblk1 V c 4 t) (iblk1 V c 3 t) p q]
  unfold denseAt
  simp only [blkA V c t p r hr, blkX V c t p r hr, blkWL V c t, blkWR V c t, blkB V c t, hA, hX, hWL, hB, hWR]

/-- An index of the result array is in point `t`'s block iff each coordinate is in the block's range. -/
theorem mem_blk (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v45).slice (win1_5.rect t)).set ↔ _
  rw [View.set_slice_whole, Rect.mem_set_unit]
  exact Iff.rfl

/-- The ten tiles of rows cover the result array: row `r` is in the tile of point `r / 10000`. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 10000 := ⟨⟨(i 0).val / 10000, by rw [show cfg1.N = 10 from N_1]; omega⟩, rfl⟩
  obtain ⟨-, -, -, -, -, -, -, -, -, -, e10, e11⟩ := idx_facts t
  refine ⟨t, flush1_5 t, ?_⟩
  rw [mem_blk]
  intro a
  match a with
  | ⟨0, _⟩ => show win1_5.index t 0 * 10000 ≤ (i 0).val ∧ (i 0).val < win1_5.index t 0 * 10000 + 10000; rw [e10, ht]; omega
  | ⟨1, _⟩ => show win1_5.index t 1 * 64 ≤ (i 1).val ∧ (i 1).val < win1_5.index t 1 * 64 + 64; rw [e11]; omega

/-- The result array after the region: the stage's whole-array value of the five operand arrays. -/
theorem final (c : Dev nD)
    (A X : S100000x128.Idx → EReal) (WL WR : S128x64.Idx → EReal) (B : S1x64.Idx → EReal)
    (hA : (V c main_v41 : S100000x128.Idx → EReal) = A) (hX : (V c main_v28 : S100000x128.Idx → EReal) = X)
    (hWL : (V c main_v42 : S128x64.Idx → EReal) = WL) (hB : (V c main_v44 : S1x64.Idx → EReal) = B)
    (hWR : (V c main_v43 : S128x64.Idx → EReal) = WR) :
    (dat1 V c).arrAt 5 cfg1.N = dense A X WL WR B :=
  (dat1 V c).arrAt_eq_of_cover 5 (dense A X WL WR B) (fun t _ => flushed_eq V c t A X WL WR B hA hX hWL hB hWR) cover

end Cert.KernelIdeal.Stage1
end
-- ==== Proof.RefStages.lean ====
/-
  The reference's two layers as the dense stage of whole arrays.

  Read one operation at a time, the reference's hidden features are, index by index, the dense stage (clamped at
  zero) of its mean-aggregated input features, the input features, the two transposed weight matrices and the
  bias row; its result is the dense stage of the mean-aggregated hidden features, the hidden features, and the
  second layer's transposed weights and bias row.  The matrix products are plain sums over the contracted axis
  at the extended reals, and the reference adds the three terms in the same order as the stage.
-/
import proofs.«110185_j2585570312619_1_alg».proof.Proof.Gen.ReferenceIdeal.Read
import proofs.«110185_j2585570312619_1_alg».proof.Proof.DenseSpec
import Idealize.ShloMosaic.Lib.ValueIdx
import Idealize.ShloMosaic.PureOps.Ideal.Laws

noncomputable section

namespace Cert.ReferenceIdeal.RefValue

open Cert.ReferenceIdeal Cert.ReferenceIdeal.Read Cert.Sage Idealize.ShloMosaic Idealize.ShloMosaic.ValueIdx

/-- The hidden features: the first stage of the reference's own mean-aggregated features. -/
theorem hidden_eq (x0 : (⟨S100000x64, .f32⟩ : BufTy).Contents (Elt Ideal)) (x1 : (⟨S2x1200000, .i32⟩ : BufTy).Contents (Elt Ideal)) (x2 : (⟨S128x64, .f32⟩ : BufTy).Contents (Elt Ideal)) (x3 : (⟨S128, .f32⟩ : BufTy).Contents (Elt Ideal)) (x4 : (⟨S128x64, .f32⟩ : BufTy).Contents (Elt Ideal)) :
    val_main_v31 (F := Ideal) x0 x1 x2 x3 x4
      = denseRelu (n := 100000) (K := 64) (d := 128) (val_main_v22 (F := Ideal) x0 x1) x0 (val_main_v23 (F := Ideal) x2) (val_main_v28 (F := Ideal) x4) (val_main_v25 (F := Ideal) x3) := by
  funext i
  obtain ⟨r, c, rfl⟩ : ∃ (r : Fin 100000) (c : Fin 128), i = ix2 r c := ⟨i 0, i 1, eq_ix2 i⟩
  rw [denseRelu_apply, val_main_v31_apply, val_main_v30_apply, val_main_v27_apply, val_main_v24_apply, val_main_v29_apply,
    val_main_v26_apply, val_main_call0_v0_apply, val_main_call0_cst_apply]
  have hl : ∀ k : Fin 64, lidx_main_v24 (ix2 r c) k = ix2 r k := fun k => funext fun a => by
    match a with | ⟨0, _⟩ => rfl | ⟨1, _⟩ => rfl
  have hr : ∀ k : Fin 64, ridx_main_v24 (ix2 r c) k = ix2 k c := fun k => funext fun a => by
    match a with | ⟨0, _⟩ => rfl | ⟨1, _⟩ => rfl
  have hl' : ∀ k : Fin 64, lidx_main_v29 (ix2 r c) k = ix2 r k := fun k => funext fun a => by
    match a with | ⟨0, _⟩ => rfl | ⟨1, _⟩ => rfl
  have hr' : ∀ k : Fin 64, ridx_main_v29 (ix2 r c) k = ix2 k c := fun k => funext fun a => by
    match a with | ⟨0, _⟩ => rfl | ⟨1, _⟩ => rfl
  have hb : idx_main_v26 (ix2 r c) = ix2 (0 : Fin 1) c := funext fun a => by
    match a with | ⟨0, _⟩ => rfl | ⟨1, _⟩ => rfl
  simp only [hl, hr, hl', hr', hb]
  unfold denseAt
  show max _ (Ideal.ofBits .f32 0x00000000#32) = max _ 0
  rw [Ideal.ofBits_zero_f32]
  rfl

/-- The result: the second stage of the reference's mean-aggregated hidden features and its hidden features. -/
theorem result_eq (x0 : (⟨S100000x64, .f32⟩ : BufTy).Contents (Elt Ideal)) (x1 : (⟨S2x1200000, .i32⟩ : BufTy).Contents (Elt Ideal)) (x2 : (⟨S128x64, .f32⟩ : BufTy).Contents (Elt Ideal)) (x3 : (⟨S128, .f32⟩ : BufTy).Contents (Elt Ideal)) (x4 : (⟨S128x64, .f32⟩ : BufTy).Contents (Elt Ideal)) (x5 : (⟨S64x128, .f32⟩ : BufTy).Contents (Elt Ideal)) (x6 : (⟨S64, .f32⟩ : BufTy).Contents (Elt Ideal)) (x7 : (⟨S64x128, .f32⟩ : BufTy).Contents (Elt Ideal)) :
    val_main_v58 (F := Ideal) x0 x1 x2 x3 x4 x5 x6 x7
      = dense (n := 100000) (K := 128) (d := 64) (val_main_v50 (F := Ideal) x0 x1 x2 x3 x4) (val_main_v31 (F := Ideal) x0 x1 x2 x3 x4)
          (val_main_v51 (F := Ideal) x5) (val_main_v56 (F := Ideal) x7) (val_main_v53 (F := Ideal) x6) := by
  funext i
  obtain ⟨r, c, rfl⟩ : ∃ (r : Fin 100000) (c : Fin 64), i = ix2 r c := ⟨i 0, i 1, eq_ix2 i⟩
  rw [dense_apply, val_main_v58_apply, val_main_v55_apply, val_main_v52_apply, val_main_v57_apply, val_main_v54_apply]
  have hl : ∀ k : Fin 128, lidx_main_v52 (ix2 r c) k = ix2 r k := fun k => funext fun a => by
    match a with | ⟨0, _⟩ => rfl | ⟨1, _⟩ => rfl
  have hr : ∀ k : Fin 128, ridx_main_v52 (ix2 r c) k = ix2 k c := fun k => funext fun a => by
    match a with | ⟨0, _⟩ => rfl | ⟨1, _⟩ => rfl
  have hl' : ∀ k : Fin 128, lidx_main_v57 (ix2 r c) k = ix2 r k := fun k => funext fun a => by
    match a with | ⟨0, _⟩ => rfl | ⟨1, _⟩ => rfl
  have hr' : ∀ k : Fin 128, ridx_main_v57 (ix2 r c) k = ix2 k c := fun k => funext fun a => by
    match a with | ⟨0, _⟩ => rfl | ⟨1, _⟩ => rfl
  have hb : idx_main_v54 (ix2 r c) = ix2 (0 : Fin 1) c := funext fun a => by
    match a with | ⟨0, _⟩ => rfl | ⟨1, _⟩ => rfl
  simp only [hl, hr, hl', hr', hb]
  rfl

end Cert.ReferenceIdeal.RefValue

end
-- ==== Proof.Bridge.lean ====
/-
  The tiled program's result is the reference's, as one function of the argument arrays.

  Boundary by boundary through the tiled program.  At the first region's entry the aggregated features are the
  reference's mean-aggregated input features (the two spellings of the mean agree at every entry), the weight
  matrices are the same transposes, and the bias reshaped to one row reads as the reference's bias broadcast to
  one row.  So after the first region the hidden-feature array holds the reference's hidden features.  The
  host operations between the regions gather and sum those hidden features along the same edges and take the same
  mean, so at the second region's entry the operands are the reference's again, and after the second region the
  result array holds the reference's result.
-/
import proofs.«110185_j2585570312619_1_alg».proof.Proof.Gen.KernelIdeal.Frame
import proofs.«110185_j2585570312619_1_alg».proof.Proof.Gen.ReferenceIdeal.Read
import proofs.«110185_j2585570312619_1_alg».proof.Proof.MeanLaw
import proofs.«110185_j2585570312619_1_alg».proof.Proof.Stage0Value
import proofs.«110185_j2585570312619_1_alg».proof.Proof.Stage1Value
import proofs.«110185_j2585570312619_1_alg».proof.Proof.RefStages
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen Cert.Sage
open Cert.ReferenceIdeal.Read (val_main_v1 val_main_v3 val_main_v18 val_main_v19 val_main_v22 val_main_v23 val_main_v25 val_main_v28
  val_main_v31 val_main_v50 val_main_v51 val_main_v53 val_main_v56 val_main_v58)

variable (m : (ℓ : Loc nD τ sig) → Buf (Elt Ideal) ℓ) (ρ : Dev nD → PrngReg)

/-- The mean over the neighbours at width 64: the summed features times the broadcast reciprocal of the clamped
    degree are the summed features divided by the broadcast clamped degree. -/
theorem mean64 (S : S100000x64.Idx → EReal) (deg : S100000.Idx → EReal) :
    mulf (F := Ideal) S (broadcastInDim S100000x64 ![0, 1] bcast_S100000x1_S100000x64_0_1 (broadcastInDim S100000x1 ![0] bcast_S100000_S100000x1_0
        (Host.divf (broadcastInDim S100000 ![] bcast_S_S100000 (constant S_ .f32 0x3F800000#32)) (maximumf deg (broadcastInDim S100000 ![] bcast_S_S100000 (constant S_ .f32 0x3F800000#32))))))
    = Host.divf S (broadcastInDim S100000x64 ![0, 1] bcast_S100000x1_S100000x64_0_1 (broadcastInDim S100000x1 ![0] bcast_S100000_S100000x1_0
        (maximumf deg (broadcastInDim S100000 ![] bcast_S_S100000 (constant S_ .f32 0x3F800000#32))))) := by
  funext j
  exact mean_entry (S j) (deg _)

/-- The mean over the neighbours at width 128: the summed features times the broadcast reciprocal of the clamped
    degree are the summed features divided by the broadcast clamped degree. -/
theorem mean128 (S : S100000x128.Idx → EReal) (deg : S100000.Idx → EReal) :
    mulf (F := Ideal) S (broadcastInDim S100000x128 ![0, 1] bcast_S100000x1_S100000x128_0_1 (broadcastInDim S100000x1 ![0] bcast_S100000_S100000x1_0
        (Host.divf (broadcastInDim S100000 ![] bcast_S_S100000 (constant S_ .f32 0x3F800000#32)) (maximumf deg (broadcastInDim S100000 ![] bcast_S_S100000 (constant S_ .f32 0x3F800000#32))))))
    = Host.divf S (broadcastInDim S100000x128 ![0, 1] bcast_S100000x1_S100000x128_0_1 (broadcastInDim S100000x1 ![0] bcast_S100000_S100000x1_0
        (maximumf deg (broadcastInDim S100000 ![] bcast_S_S100000 (constant S_ .f32 0x3F800000#32))))) := by
  funext j
  exact mean_entry (S j) (deg _)

/-! ## The first region's entry -/

set_option maxHeartbeats 8000000 in
/-- The aggregated input features are the reference's mean-aggregated input features. -/
theorem entry0_A (c : Dev nD) :
    (V1 m ρ c main_v24 : S100000x64.Idx → EReal) = val_main_v22 (F := Ideal) (m ((c : Thread nD τ).loc main_arg0)) (m ((c : Thread nD τ).loc main_arg1)) := by
  show StableHlo.after hostOps0 (W0 m ρ c) (Proc.devRef .tc main_v24) = _
  after_results_simp
  refine (mean64 _ _).trans ?_
  rfl

set_option maxHeartbeats 8000000 in
theorem entry0_X (c : Dev nD) :
    (V1 m ρ c main_arg0 : S100000x64.Idx → EReal) = m ((c : Thread nD τ).loc main_arg0) := by
  show StableHlo.after hostOps0 (W0 m ρ c) (Proc.devRef .tc main_arg0) = _
  after_results_simp

set_option maxHeartbeats 8000000 in
theorem entry0_WL (c : Dev nD) :
    (V1 m ρ c main_v25 : S64x128.Idx → EReal) = val_main_v23 (F := Ideal) (m ((c : Thread nD τ).loc main_arg2)) := by
  show StableHlo.after hostOps0 (W0 m ρ c) (Proc.devRef .tc main_v25) = _
  after_results_simp
  rfl

set_option maxHeartbeats 8000000 in
theorem entry0_WR (c : Dev nD) :
    (V1 m ρ c main_v26 : S64x128.Idx → EReal) = val_main_v28 (F := Ideal) (m ((c : Thread nD τ).loc main_arg4)) := by
  show StableHlo.after hostOps0 (W0 m ρ c) (Proc.devRef .tc main_v26) = _
  after_results_simp
  rfl

set_option maxHeartbeats 8000000 in
/-- The bias reshaped to one row reads, at column `q`, the bias at `q`: so does the bias broadcast to one row. -/
theorem entry0_B (c : Dev nD) :
    (V1 m ρ c main_v27 : S1x128.Idx → EReal) = val_main_v25 (F := Ideal) (m ((c : Thread nD τ).loc main_arg3)) := by
  show StableHlo.after hostOps0 (W0 m ρ c) (Proc.devRef .tc main_v27) = _
  after_results_simp
  funext i
  obtain ⟨u, q, rfl⟩ : ∃ (u : Fin 1) (q : Fin 128), i = ix2 u q := ⟨i 0, i 1, eq_ix2 i⟩
  rw [Cert.ReferenceIdeal.Read.val_main_v25_apply]
  show shapeCast (⟨2, ![1, 128]⟩ : Shape) (m ((c : Thread nD τ).loc main_arg3)) shapeCasts_S128_S1x128 (ix2 u q) = _
  rw [shapeCast_a_1a_apply]
  congr 1
  funext a
  match a with
  | ⟨0, _⟩ => rfl

/-! ## After the first region -/

/-- The hidden-feature array holds the reference's hidden features. -/
theorem hidden (c : Dev nD) :
    W2 m ρ c (Proc.devRef .tc main_v28) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 5).trans ((Cert.KernelIdeal.Stage0.final (V1 m ρ) c _ _ _ _ _
    (entry0_A m ρ c) (entry0_X m ρ c) (entry0_WL m ρ c) (entry0_B m ρ c) (entry0_WR m ρ c)).trans
    (Cert.ReferenceIdeal.RefValue.hidden_eq _ _ _ _ _).symm)

/-! ## What the second stretch of host operations reads from the first -/

set_option maxHeartbeats 8000000 in
theorem w1_src (c : Dev nD) : W1 m ρ c (Proc.devRef .tc main_v1) = val_main_v1 (F := Ideal) (m ((c : Thread nD τ).loc main_arg1)) := by
  show StableHlo.after hostOps0 (W0 m ρ c) (Proc.devRef .tc main_v1) = _
  after_results_simp
  rfl

set_option maxHeartbeats 8000000 in
theorem w1_dst (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp
  rfl

set_option maxHeartbeats 8000000 in
theorem w1_recip (c : Dev nD) : W1 m ρ c (Proc.devRef .tc main_v11)
    = Host.divf (F := Ideal) (broadcastInDim S100000 ![] bcast_S_S100000 (constant S_ .f32 0x3F800000#32)) (val_main_v19 (F := Ideal) (m ((c : Thread nD τ).loc main_arg1))) := by
  show StableHlo.after hostOps0 (W0 m ρ c) (Proc.devRef .tc main_v11) = _
  after_results_simp
  rfl

set_option maxHeartbeats 8000000 in
theorem w1_arg5 (c : Dev nD) : W1 m ρ c (Proc.devRef .tc main_arg5) = m ((c : Thread nD τ).loc main_arg5) := by
  show StableHlo.after hostOps0 (W0 m ρ c) (Proc.devRef .tc main_arg5) = _
  after_results_simp

set_option maxHeartbeats 8000000 in
theorem w1_arg6 (c : Dev nD) : W1 m ρ c (Proc.devRef .tc main_arg6) = m ((c : Thread nD τ).loc main_arg6) := by
  show StableHlo.after hostOps0 (W0 m ρ c) (Proc.devRef .tc main_arg6) = _
  after_results_simp

set_option maxHeartbeats 8000000 in
theorem w1_arg7 (c : Dev nD) : W1 m ρ c (Proc.devRef .tc main_arg7) = m ((c : Thread nD τ).loc main_arg7) := by
  show StableHlo.after hostOps0 (W0 m ρ c) (Proc.devRef .tc main_arg7) = _
  after_results_simp

/-! ## The second region's entry -/

set_option maxHeartbeats 8000000 in
/-- The aggregated hidden features are the reference's mean-aggregated hidden features. -/
theorem entry1_A (c : Dev nD) :
    (V3 m ρ c main_v41 : S100000x128.Idx → EReal) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v41) = _
  after_results_simp
  rw [hidden m ρ c, W2_of_ne m ρ c main_v1 (by decide), W2_of_ne m ρ c main_v3 (by decide), W2_of_ne m ρ c main_v11 (by decide),
    w1_src m ρ c, w1_dst m ρ c, w1_recip m ρ c]
  refine (mean128 _ _).trans ?_
  rfl

set_option maxHeartbeats 8000000 in
theorem entry1_X (c : Dev nD) :
    (V3 m ρ c main_v28 : S100000x128.Idx → EReal) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v28) = _
  after_results_simp
  exact hidden m ρ c

set_option maxHeartbeats 8000000 in
theorem entry1_WL (c : Dev nD) :
    (V3 m ρ c main_v42 : S128x64.Idx → EReal) = val_main_v51 (F := Ideal) (m ((c : Thread nD τ).loc main_arg5)) := by
  show StableHlo.after hostOps1 (W2 m ρ c) (Proc.devRef .tc main_v42) = _
  after_results_simp
  rw [W2_of_ne m ρ c main_arg5 (by decide), w1_arg5 m ρ c]
  rfl

set_option maxHeartbeats 8000000 in
theorem entry1_WR (c : Dev nD) :
    (V3 m ρ c main_v43 : S128x64.Idx → EReal) = val_main_v56 (F := Ideal) (m ((c : Thread nD τ).loc main_arg7)) := by
  show StableHlo.after hostOps1 (W2 m ρ c) (Proc.devRef .tc main_v43) = _
  after_results_simp
  rw [W2_of_ne m ρ c main_arg7 (by decide), w1_arg7 m ρ c]
  rfl

set_option maxHeartbeats 8000000 in
theorem entry1_B (c : Dev nD) :
    (V3 m ρ c main_v44 : S1x64.Idx → EReal) = val_main_v53 (F := Ideal) (m ((c : Thread nD τ).loc main_arg6)) := by
  show StableHlo.after hostOps1 (W2 m ρ c) (Proc.devRef .tc main_v44) = _
  after_results_simp
  rw [W2_of_ne m ρ c main_arg6 (by decide), w1_arg6 m ρ c]
  funext i
  obtain ⟨u, q, rfl⟩ : ∃ (u : Fin 1) (q : Fin 64), i = ix2 u q := ⟨i 0, i 1, eq_ix2 i⟩
  rw [Cert.ReferenceIdeal.Read.val_main_v53_apply]
  show shapeCast (⟨2, ![1, 64]⟩ : Shape) (m ((c : Thread nD τ).loc main_arg6)) shapeCasts_S64_S1x64 (ix2 u q) = _
  rw [shapeCast_a_1a_apply]
  congr 1
  funext a
  match a with
  | ⟨0, _⟩ => rfl

/-! ## After the second region -/

/-- The result array holds the reference's result. -/
theorem result (c : Dev nD) :
    W4 m ρ c (Proc.devRef .tc main_v45) = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_arr m ρ c 5).trans ((Cert.KernelIdeal.Stage1.final (V3 m ρ) c _ _ _ _ _
    (entry1_A m ρ c) (entry1_X m ρ c) (entry1_WL m ρ c) (entry1_B m ρ c) (entry1_WR m ρ c)).trans
    (Cert.ReferenceIdeal.RefValue.result_eq _ _ _ _ _ _ _ _).symm)

end Cert.KernelIdeal.Bridge

end
-- ==== Proof.lean ====
/-
  A two-layer GraphSAGE network with mean aggregation: a program whose two dense stages are tiled kernels over the
  node axis, against a reference that takes whole matrix products; equal as functions of the inputs over the
  extended reals.

  Both programs gather each edge's source features and sum them at the edge's target with the same host
  operations, so that part is the same function on both sides and is never opened.  They differ in two places.
  The tiled program multiplies the summed features by 1 / max(deg, 1) where the reference divides by max(deg, 1):
  equal at every entry, because the clamped degree is at least 1 and so never zero (Proof/MeanLaw.lean).  And
  the tiled program computes each dense stage  (A·WLᵀ + b) + X·WRᵀ  ten thousand rows at a time, in a narrower
  float format that is the identity over the extended reals, into zero accumulators, where the reference takes
  whole matrix products: the same sums in the same order (Proof/DensePayload.lean, Proof/Stage0Value.lean,
  Proof/Stage1Value.lean for the tiles; Proof/RefStages.lean for the reference).  Proof/Bridge.lean walks the tiled
  program boundary by boundary and finds the reference's arrays at each; Proof/KernelRun.lean is the tiled
  program's run with its result buffer named.  The three frames are the generated ones; nothing was rewritten
  by the idealization, so there is nothing to preserve.
-/
import proofs.«110185_j2585570312619_1_alg».proof.Defs
import proofs.«110185_j2585570312619_1_alg».proof.Proof.Gen.Kernel
import proofs.«110185_j2585570312619_1_alg».proof.Proof.Gen.Kernel.Skeleton
import proofs.«110185_j2585570312619_1_alg».proof.Proof.Gen.Kernel.Launch
import proofs.«110185_j2585570312619_1_alg».proof.Proof.Gen.Kernel.Points
import proofs.«110185_j2585570312619_1_alg».proof.Proof.Gen.Kernel.Frame
import proofs.«110185_j2585570312619_1_alg».proof.Proof.Gen.KernelIdeal
import proofs.«110185_j2585570312619_1_alg».proof.Proof.Gen.KernelIdeal.Skeleton
import proofs.«110185_j2585570312619_1_alg».proof.Proof.Gen.KernelIdeal.Launch
import proofs.«110185_j2585570312619_1_alg».proof.Proof.Gen.KernelIdeal.Points
import proofs.«110185_j2585570312619_1_alg».proof.Proof.Gen.KernelIdeal.Frame
import proofs.«110185_j2585570312619_1_alg».proof.Proof.Gen.ReferenceIdeal
import proofs.«110185_j2585570312619_1_alg».proof.Proof.Gen.Pre_finite_inputs
import proofs.«110185_j2585570312619_1_alg».proof.Proof.Gen.ReferenceIdeal.Run
import proofs.«110185_j2585570312619_1_alg».proof.Proof.Gen.ReferenceIdeal.Read
import proofs.«110185_j2585570312619_1_alg».proof.Proof.KernelRun
import proofs.«110185_j2585570312619_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- Both programs end with the result array at the reference's last stage of the argument arrays: the tiled
    program by the walk through its boundaries, the reference by its run read one operation at a time. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Bridge.result m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v58_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
